-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S8192x8192 .f32) (main_arg1 : FVec F S8192x64 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x8192 : Shape := ⟨2, ![8192, 8192]⟩
abbrev S8192x64 : Shape := ⟨2, ![8192, 64]⟩
abbrev S256x8192 : Shape := ⟨2, ![256, 8192]⟩
abbrev S256x64 : Shape := ⟨2, ![256, 64]⟩
abbrev S128x8192 : Shape := ⟨2, ![128, 8192]⟩
abbrev S128x64 : Shape := ⟨2, ![128, 64]⟩

abbrev nBuf : Space → Nat
  | .hbm => 3
  | .vmem => 5
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S8192x64, .f32⟩
  | .local _ .vmem, ⟨0, _⟩ => ⟨S256x8192, .f32⟩
  | .local _ .vmem, ⟨1, _⟩ => ⟨S256x8192, .f32⟩
  | .local _ .vmem, ⟨2, _⟩ => ⟨S8192x64, .f32⟩
  | .local _ .vmem, ⟨3, _⟩ => ⟨S256x64, .f32⟩
  | .local _ .vmem, ⟨4, _⟩ => ⟨S256x64, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S256x8192_S128x8192_0_0 : ∀ a, (![0, 0] : Fin 2 → Nat) a + S128x8192.size a ≤ S256x8192.size a
  h_S128x8192 : 0 < S128x8192.numel
  inb_S256x64_S128x64_0_0 : ∀ a, (![0, 0] : Fin 2 → Nat) a + S128x64.size a ≤ S256x64.size a
  h_S128x64 : 0 < S128x64.numel
  inb_S256x8192_S128x8192_128_0 : ∀ a, (![128, 0] : Fin 2 → Nat) a + S128x8192.size a ≤ S256x8192.size a
  inb_S256x64_S128x64_128_0 : ∀ a, (![128, 0] : Fin 2 → Nat) a + S128x64.size a ≤ S256x64.size a
  dot_S128x8192_S8192x64_S128x64_1_0_0_1_n_n_wf : DotDims.WF S128x8192 S8192x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S8192x64.size a
  hwx0_2 : ∀ i : grid0.Coords, EltTy.bits .f32 = 32 ∨ (Rect.block (s := S8192x64) S256x64.size (cc0_transform_2 i) (hinb0_2 i)).WholeWords (EltTy.packing .f32)

variable [Facts₀]

def dot_S128x8192_S8192x64_S128x64_1_0_0_1_n_n : DotDims S128x8192 S8192x64 S128x64 where
  lhsContracting := [1]
  rhsContracting := [0]
  lhsNonContracting := [0]
  rhsNonContracting := [1]
  lhsBatch := []
  rhsBatch := []
  wf := dot_S128x8192_S8192x64_S128x64_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192x64 : Shape := ⟨2, ![8192, 64]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S8192x64, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x8192_S8192x64_S8192x64_1_0_0_1_n_n_wf : DotDims.WF S8192x8192 S8192x64 S8192x64 [1] [0] [0] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.Product.lean ====
/-
  The matrix product both programs compute, stated once over the extended reals and over literal shapes:
  entry (p, q) of the [8192, 64] result is the sum over k < 8192 of A[p, k] · E[k, q]. The same sum over a
  block of 256 rows of A is the block of the product those rows give. No program is mentioned here.
-/
import Idealize.ShloMosaic.PureOps.Ideal
import Idealize.ShloMosaic.Lib.ValueIdx

noncomputable section

namespace Cert.Product

open Idealize.ShloMosaic Idealize.ShloMosaic.ValueIdx

/-- The product of `A : [8192, 8192]` with `E : [8192, 64]`: entry `(p, q)` is `∑ k, A[p, k] · E[k, q]`. -/
def prod (A : (⟨2, ![8192, 8192]⟩ : Shape).Idx → EReal) (E : (⟨2, ![8192, 64]⟩ : Shape).Idx → EReal) :
    (⟨2, ![8192, 64]⟩ : Shape).Idx → EReal :=
  fun i => ∑ k : Fin 8192, A (ix2 (i 0) k) * E (ix2 k (i 1))

/-- The product of a block `B : [256, 8192]` of rows with `E : [8192, 64]`: entry `(r, q)` is `∑ k, B[r, k] · E[k, q]`. -/
def blockProd (B : (⟨2, ![256, 8192]⟩ : Shape).Idx → EReal) (E : (⟨2, ![8192, 64]⟩ : Shape).Idx → EReal) :
    (⟨2, ![256, 64]⟩ : Shape).Idx → EReal :=
  fun y => ∑ k : Fin 8192, B (ix2 (y 0) k) * E (ix2 k (y 1))

end Cert.Product

end
-- ==== Proof.ReferenceProduct.lean ====
/-
  The reference is the product. Its one host operation contracts axis 1 of the first argument with axis 0 of
  the second; read at an entry (p, q) over the extended reals that is the sum over k of A[p, k] · E[k, q].
-/
import proofs.«102399_g24532853195392_cont_8to1_888_29_alg».proof.Proof.Gen.ReferenceIdeal.Read
import proofs.«102399_g24532853195392_cont_8to1_888_29_alg».proof.Proof.Product

noncomputable section

namespace Cert.ReferenceIdeal.RefValue

open Cert.ReferenceIdeal Cert.ReferenceIdeal.Gen Idealize.ShloMosaic Idealize.ShloMosaic.ValueIdx

/-- The reference's result, as a function of its two arguments, is `Product.prod` of them: at entry `i` the
    contraction's left index is `(i 0, k)` and its right index `(k, i 1)`. -/
theorem dot_eq_prod (A : (⟨S8192x8192, .f32⟩ : BufTy).Contents (Elt Ideal)) (E : (⟨S8192x64, .f32⟩ : BufTy).Contents (Elt Ideal)) :
    Read.val_main_v0 (F := Ideal) A E = Cert.Product.prod A E := by
  funext i
  rw [Read.val_main_v0_apply]
  unfold Cert.Product.prod
  refine Finset.sum_congr rfl fun k _ => ?_
  have el : Read.lidx_main_v0 i k = ix2 (i 0) k :=
    funext fun a => Fin.ext (by match a with | ⟨0, _⟩ => rfl | ⟨1, _⟩ => rfl)
  have er : Read.ridx_main_v0 i k = ix2 k (i 1) :=
    funext fun a => Fin.ext (by match a with | ⟨0, _⟩ => rfl | ⟨1, _⟩ => rfl)
  exact congrArg₂ (· * ·) (congrArg A el) (congrArg E er)

end Cert.ReferenceIdeal.RefValue

end
-- ==== Proof.SubDot.lean ====
/-
  One of the body's two sub-products, read at an entry. The body multiplies a slice of 128 rows of its block
  of A by the whole of E (whose change of float format is the identity over the extended reals) into a zero
  accumulator; entry (r, q) of the [128, 64] result is the sum over k of slice[r, k] · E[k, q].
-/
import proofs.«102399_g24532853195392_cont_8to1_888_29_alg».proof.Proof.Gen.KernelIdeal.Skeleton
import Idealize.ShloMosaic.Lib.ValueIdx
import Idealize.ShloMosaic.PureOps.Ideal.Laws

noncomputable section

namespace Cert.KernelIdeal.SubDot

open Cert.KernelIdeal Cert.KernelIdeal.Gen Idealize.ShloMosaic Idealize.ShloMosaic.ValueIdx

/-- The left operand's row coordinate is the entry's row: axis 0 of the left operand is not contracted. -/
theorem lhs_row (x : S128x64.Idx) (q : dot_S128x8192_S8192x64_S128x64_1_0_0_1_n_n.contr.Idx) : (dot_S128x8192_S8192x64_S128x64_1_0_0_1_n_n.lhsIdx x q 0).val = (x 0).val := by
  unfold DotDims.lhsIdx
  rw [dif_neg (show ¬(0 : Fin S128x8192.rank) ∈ dot_S128x8192_S8192x64_S128x64_1_0_0_1_n_n.lhsBatch by decide),
    dif_pos (show (0 : Fin S128x8192.rank) ∈ dot_S128x8192_S8192x64_S128x64_1_0_0_1_n_n.lhsNonContracting by decide)]
  rfl

/-- The right operand's column coordinate is the entry's column: axis 1 of the right operand is not contracted. -/
theorem rhs_col (x : S128x64.Idx) (q : dot_S128x8192_S8192x64_S128x64_1_0_0_1_n_n.contr.Idx) : (dot_S128x8192_S8192x64_S128x64_1_0_0_1_n_n.rhsIdx x q 1).val = (x 1).val := by
  unfold DotDims.rhsIdx
  rw [dif_neg (show ¬(1 : Fin S8192x64.rank) ∈ dot_S128x8192_S8192x64_S128x64_1_0_0_1_n_n.rhsBatch by decide),
    dif_pos (show (1 : Fin S8192x64.rank) ∈ dot_S128x8192_S8192x64_S128x64_1_0_0_1_n_n.rhsNonContracting by decide)]
  rfl

/-- The contraction's left index at entry `x` and contracted position `k` is `(x 0, k)`. -/
theorem lhsIdx_eq (x : S128x64.Idx) (k : Fin 8192) :
    dot_S128x8192_S8192x64_S128x64_1_0_0_1_n_n.lhsIdx x ((contrEquiv1 dot_S128x8192_S8192x64_S128x64_1_0_0_1_n_n 8192 rfl rfl).symm k) = ix2 (x 0) k := by
  have hk := contrEquiv1_symm_val dot_S128x8192_S8192x64_S128x64_1_0_0_1_n_n 8192 rfl rfl k
  refine funext fun a => Fin.ext ?_
  match a with
  | ⟨0, _⟩ => exact lhs_row _ _
  | ⟨1, _⟩ => exact (dot_S128x8192_S8192x64_S128x64_1_0_0_1_n_n.lhsIdx_val_of_single rfl x _).trans hk

/-- Its right index is `(k, x 1)`. -/
theorem rhsIdx_eq (x : S128x64.Idx) (k : Fin 8192) :
    dot_S128x8192_S8192x64_S128x64_1_0_0_1_n_n.rhsIdx x ((contrEquiv1 dot_S128x8192_S8192x64_S128x64_1_0_0_1_n_n 8192 rfl rfl).symm k) = ix2 k (x 1) := by
  have hk := contrEquiv1_symm_val dot_S128x8192_S8192x64_S128x64_1_0_0_1_n_n 8192 rfl rfl k
  refine funext fun a => Fin.ext ?_
  match a with
  | ⟨0, _⟩ => exact (dot_S128x8192_S8192x64_S128x64_1_0_0_1_n_n.rhsIdx_val_of_single rfl x _).trans hk
  | ⟨1, _⟩ => exact rhs_col _ _

/-- A sub-product into the zero accumulator, at entry `x`: `∑ k, rows[x 0, k] · E[k, x 1]`. -/
theorem subdot_apply (rows : FVec Ideal S128x8192 .f32) (E : FVec Ideal S8192x64 .bf16) (x : S128x64.Idx) :
    matmul dot_S128x8192_S8192x64_S128x64_1_0_0_1_n_n none rows E (constant (F := Ideal) S128x64 .f32 0x00000000#32) x
      = ∑ k : Fin 8192, rows (ix2 (x 0) k) * E (ix2 k (x 1)) := by
  refine (Ideal.matmul_constant_zero_apply dot_S128x8192_S8192x64_S128x64_1_0_0_1_n_n none rows E x).trans ?_
  rw [← Equiv.sum_comp (contrEquiv1 dot_S128x8192_S8192x64_S128x64_1_0_0_1_n_n 8192 rfl rfl).symm]
  refine Finset.sum_congr rfl fun k _ => ?_
  exact congrArg₂ (· * ·) (congrArg rows (lhsIdx_eq x k)) (congrArg E (rhsIdx_eq x k))

/-- The first store's payload at entry `x`: the format change of `E` is the identity. -/
theorem pay2_apply (E : Vec Ideal S8192x64 .f32) (rows : Vec Ideal S128x8192 .f32) (x : S128x64.Idx) :
    k0_pay2 (F := Ideal) E rows x = ∑ k : Fin 8192, rows (ix2 (x 0) k) * E (ix2 k (x 1)) := by
  unfold k0_pay2 k0_pay1
  exact subdot_apply rows _ x

/-- The second store's payload at entry `x`, the same sum over its own rows. -/
theorem pay3_apply (E : Vec Ideal S8192x64 .f32) (rows : Vec Ideal S128x8192 .f32) (x : S128x64.Idx) :
    k0_pay3 (F := Ideal) E rows x = ∑ k : Fin 8192, rows (ix2 (x 0) k) * E (ix2 k (x 1)) := by
  unfold k0_pay3 k0_pay1
  exact subdot_apply rows _ x

end Cert.KernelIdeal.SubDot

end
-- ==== Proof.BlockProduct.lean ====
/-
  What the body leaves in its output block. The block of 256 rows is written by two stores of 128 rows each;
  the first holds the product of rows 0–127 of the block of A with E, the second that of rows 128–255. Each is
  the restriction of ONE function of the block's index — the product of the whole block of A with E — to the
  rows it covers, and the two cover the block: the block holds that product.
-/
import proofs.«102399_g24532853195392_cont_8to1_888_29_alg».proof.Proof.Gen.KernelIdeal.Frame
import proofs.«102399_g24532853195392_cont_8to1_888_29_alg».proof.Proof.SubDot
import proofs.«102399_g24532853195392_cont_8to1_888_29_alg».proof.Proof.Product
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx

theorem zero_offsets : (![0, 0] : Fin 2 → Nat) = fun _ => 0 := funext fun a => by fin_cases a <;> rfl

/-- The store of rows 0–127: at its local entry `x` it holds the block product at row `x 0`, column `x 1`. -/
theorem low_rows (B : Vec Ideal S256x8192 .f32) (E : Vec Ideal S8192x64 .f32) (x : S128x64.Idx) :
    k0_pay2 (F := Ideal) (View.ld E r0_0) (View.ld B r0_1) x = Cert.Product.blockProd B E (r0_2.emb x) := by
  rw [SubDot.pay2_apply, View.ld_unit_zero (S := S8192x64) zero_offsets]
  unfold Cert.Product.blockProd
  refine Finset.sum_congr rfl fun k _ => ?_
  have eB : r0_1.idx (ix2 (x 0) k) = ix2 ((r0_2.emb x) 0) k := funext fun a => Fin.ext (by
    match a with
    | ⟨0, _⟩ => show 0 + 1 * (x 0).val = 0 + 1 * (x 0).val; rfl
    | ⟨1, _⟩ => show 0 + 1 * k.val = k.val; omega)
  have eE : ix2 k (x 1) = ix2 k ((r0_2.emb x) 1) := funext fun a => Fin.ext (by
    match a with
    | ⟨0, _⟩ => rfl
    | ⟨1, _⟩ => show (x 1).val = 0 + 1 * (x 1).val; omega)
  exact congrArg₂ (· * ·) (congrArg B eB) (congrArg E eE)

/-- The store of rows 128–255: at its local entry `x` it holds the block product at row `128 + x 0`. -/
theorem high_rows (B : Vec Ideal S256x8192 .f32) (E : Vec Ideal S8192x64 .f32) (x : S128x64.Idx) :
    k0_pay3 (F := Ideal) (View.ld E r0_0) (View.ld B r0_3) x = Cert.Product.blockProd B E (r0_4.emb x) := by
  rw [SubDot.pay3_apply, View.ld_unit_zero (S := S8192x64) zero_offsets]
  unfold Cert.Product.blockProd
  refine Finset.sum_congr rfl fun k _ => ?_
  have eB : r0_3.idx (ix2 (x 0) k) = ix2 ((r0_4.emb x) 0) k := funext fun a => Fin.ext (by
    match a with
    | ⟨0, _⟩ => show 128 + 1 * (x 0).val = 128 + 1 * (x 0).val; rfl
    | ⟨1, _⟩ => show 0 + 1 * k.val = k.val; omega)
  have eE : ix2 k (x 1) = ix2 k ((r0_4.emb x) 1) := funext fun a => Fin.ext (by
    match a with
    | ⟨0, _⟩ => rfl
    | ⟨1, _⟩ => show (x 1).val = 0 + 1 * (x 1).val; omega)
  exact congrArg₂ (· * ·) (congrArg B eB) (congrArg E eE)

/-- The output block after the body is the product of the block of `A` with `E`. -/
theorem out_eq (B : Vec Ideal S256x8192 .f32) (E : Vec Ideal S8192x64 .f32) :
    out0_2 (F := Ideal) B E = Cert.Product.blockProd B E := by
  funext y
  unfold out0_2
  refine View.canon_apply_of_pieces (Val := Elt Ideal) (S := S256x64) (e := .f32) (Cert.Product.blockProd B E) _ ?_ y (cover0_2 _ _ y)
  intro p hp
  rcases List.mem_cons.mp hp with rfl | hp
  · exact fun x => high_rows B E x
  · rcases List.mem_singleton.mp hp with rfl
    exact fun x => low_rows B E x

end Cert.KernelIdeal.Block

end
-- ==== Proof.KernelProduct.lean ====
/-
  From blocks to the array. Grid point t stages rows 256·t … 256·t + 255 of A (all 8192 columns) and the whole
  of E, and writes back rows 256·t … 256·t + 255 of the result (all 64 columns). What it writes back is the
  block product of its rows of A with E, which is those rows of the product of A with E; the 32 points' blocks
  tile the 8192 rows, so after the run the result array is the product.
-/
import proofs.«102399_g24532853195392_cont_8to1_888_29_alg».proof.Proof.Gen.KernelIdeal.Value
import proofs.«102399_g24532853195392_cont_8to1_888_29_alg».proof.Proof.BlockProduct
import proofs.«102399_g24532853195392_cont_8to1_888_29_alg».proof.Proof.Product
import Idealize.ShloMosaic.Lib.Pipeline.Value
import Idealize.ShloMosaic.Lib.ValueIdx

noncomputable section

namespace Cert.KernelIdeal.ArrValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The index maps over the grid: the block of `A` moves down with the output block, one block of rows per
    point; `E` is always its one block; column blocks are always the first. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 31 :=
  (by decide +kernel : ∀ t : Fin grid0.N, _)

/-- Every block of rows of the result is some point's. -/
theorem idx_onto : ∀ q : Fin 32, ∃ t : Fin cfg0.N, win0_2.index t = ![q.val, 0] :=
  (by decide +kernel : ∀ q : Fin 32, ∃ t : Fin grid0.N, win0_2.index t = ![q.val, 0])

/-- Entry `(r, k)` of point `t`'s block of `A` sits in the array at the row where the output block's row `r`
    sits, column `k`. -/
theorem blockA_idx (t : Fin cfg0.N) (j : S256x64.Idx) (k : Fin 8192) :
    ((cfg0.win 0).blk t).view.emb (ix2 (j 0) k) = ix2 ((((cfg0.win 2).blk t).view.emb j) 0) k := by
  obtain ⟨e0, e1, -, -, -, -⟩ := idx_facts t
  funext a; apply Fin.ext
  match a with
  | ⟨0, _⟩ =>
    show win0_0.index t (0 : Fin 2) * 256 + 1 * (j 0).val = win0_2.index t (0 : Fin 2) * 256 + 1 * (j 0).val
    omega
  | ⟨1, _⟩ =>
    show win0_0.index t (1 : Fin 2) * 8192 + 1 * k.val = k.val
    omega

/-- Entry `(k, q)` of point `t`'s block of `E` is entry `(k, q)` of `E`, `q` the output block's column. -/
theorem blockE_idx (t : Fin cfg0.N) (j : S256x64.Idx) (k : Fin 8192) :
    ((cfg0.win 1).blk t).view.emb (ix2 k (j 1)) = ix2 k ((((cfg0.win 2).blk t).view.emb j) 1) := by
  obtain ⟨-, -, e2, e3, e4, -⟩ := idx_facts t
  funext a; apply Fin.ext
  match a with
  | ⟨0, _⟩ =>
    show win0_1.index t (0 : Fin 2) * 8192 + 1 * k.val = k.val
    omega
  | ⟨1, _⟩ =>
    show win0_1.index t (1 : Fin 2) * 64 + 1 * (j 1).val = win0_2.index t (1 : Fin 2) * 64 + 1 * (j 1).val
    omega

/-- WHAT POINT `t` WRITES BACK is block `t` of the product of the argument arrays. -/
theorem flushed_eq (c : Dev nD) (t : Fin cfg0.N) :
    (dats m 0 c).flushed 2 t
      = ((cfg0.win 2).blk t).view.read (Elt Ideal) (Cert.Product.prod (V m c main_arg0) (V m c main_arg1)) := by
  refine (Value.flushed2 m c t).trans ?_
  rw [Block.out_eq (iblk m c 0 t) (iblk m c 1 t)]
  funext j
  show Cert.Product.blockProd (iblk m c 0 t) (iblk m c 1 t) j
      = Cert.Product.prod (V m c main_arg0) (V m c main_arg1) (((cfg0.win 2).blk t).view.emb j)
  unfold Cert.Product.blockProd Cert.Product.prod
  refine Finset.sum_congr rfl fun k _ => ?_
  exact congrArg₂ (fun a b : EReal => a * b)
    (congrArg (fun i => (V m c main_arg0 i : EReal)) (blockA_idx t j k))
    (congrArg (fun i => (V m c main_arg1 i : EReal)) (blockE_idx t j k))

/-- An index of the result is in point `t`'s block iff each coordinate is in the block's range on its axis. -/
theorem mem_blk (t : Fin cfg0.N) (i : S8192x64.Idx) :
    i ∈ ((cfg0.win 2).blk t).view.set ↔ ∀ a : Fin 2, win0_2.index t a * S256x64.size a ≤ (i a).val
      ∧ (i a).val < win0_2.index t a * S256x64.size a + S256x64.size a := by
  show i ∈ ((View.whole main_v0).slice (win0_2.rect t)).set ↔ _
  rw [View.set_slice_whole, Rect.mem_set_unit]
  exact Iff.rfl

/-- Every index of the result is in some point's block: row `r` is in the block of point `r / 256`. -/
theorem cover (i : S8192x64.Idx) :
    ∃ t : Fin cfg0.N, (cfg0.win 2).flush t = true ∧ i ∈ ((cfg0.win 2).blk t).view.set := by
  have hi0 : (i 0).val < 8192 := (i 0).isLt
  have hi1 : (i 1).val < 64 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 64 ≤ (i 1).val ∧ (i 1).val < win0_2.index t (1 : Fin 2) * 64 + 64
    omega

/-- THE ARRAY after the run is the product of the two argument arrays as launched. -/
theorem final (c : Dev nD) :
    (dats m 0 c).arrAt 2 cfg0.N
      = Cert.Product.prod (m ((c : Thread nD τ).loc main_arg0)) (m ((c : Thread nD τ).loc main_arg1)) :=
  (dats m 0 c).arrAt_eq_of_cover 2 (Cert.Product.prod (V m c main_arg0) (V m c main_arg1))
    (fun t _ => flushed_eq m c t) cover

/-- The kernel's run: the result array ends at the product of the arguments, the arguments unchanged. -/
theorem run : θ_run defs (onTc (τ := τ) (main (F := Ideal))) ⟨m, fun _ => 0, ρ⟩ fun r => ∀ c : Dev nD,
      r.2.mem ((c : Thread nD τ).loc main_v0)
        = Cert.Product.prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrValue

end
-- ==== Proof.lean ====
/-
  The kernel streams A = matrix_parents through a grid of 32 blocks of 256 rows, keeps E = Epsilon resident, and
  at each point writes the block's product with E as two products of 128 rows each; the reference is the one
  product A · E. Over the extended reals a change of float format is the identity and a product into a zero
  accumulator is the plain sum, so every entry (p, q) of both results is ∑ k, A[p, k] · E[k, q]: the same
  finite sum, term for term, with nothing rearranged — no hypothesis on the inputs is used.

  Product.lean states that sum once; ReferenceProduct.lean reads the reference's contraction as it;
  SubDot.lean reads one 128-row product at an entry; BlockProduct.lean joins the two stores into the 256-row
  block; KernelProduct.lean places the 32 blocks in the result array. The three frames are the generated
  ones (the reference's is its run with the result dropped); the idealization rewrote nothing.
-/
import proofs.«102399_g24532853195392_cont_8to1_888_29_alg».proof.Defs
import proofs.«102399_g24532853195392_cont_8to1_888_29_alg».proof.Proof.Gen.Kernel
import proofs.«102399_g24532853195392_cont_8to1_888_29_alg».proof.Proof.Gen.Kernel.Frame
import proofs.«102399_g24532853195392_cont_8to1_888_29_alg».proof.Proof.Gen.KernelIdeal
import proofs.«102399_g24532853195392_cont_8to1_888_29_alg».proof.Proof.Gen.KernelIdeal.Frame
import proofs.«102399_g24532853195392_cont_8to1_888_29_alg».proof.Proof.Gen.KernelIdeal.Value
import proofs.«102399_g24532853195392_cont_8to1_888_29_alg».proof.Proof.Gen.ReferenceIdeal
import proofs.«102399_g24532853195392_cont_8to1_888_29_alg».proof.Proof.Gen.ReferenceIdeal.Run
import proofs.«102399_g24532853195392_cont_8to1_888_29_alg».proof.Proof.Gen.ReferenceIdeal.Read
import proofs.«102399_g24532853195392_cont_8to1_888_29_alg».proof.Proof.Gen.Pre_finite_inputs
import proofs.«102399_g24532853195392_cont_8to1_888_29_alg».proof.Proof.Product
import proofs.«102399_g24532853195392_cont_8to1_888_29_alg».proof.Proof.ReferenceProduct
import proofs.«102399_g24532853195392_cont_8to1_888_29_alg».proof.Proof.KernelProduct
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both results are the product of the arguments: the kernel's block by block, the reference's by its one
    contraction, and the arguments agree. -/
theorem algebraic : Cert.algebraic_KernelIdeal_ReferenceIdeal := by
  intro m ρ m' ρ' _ hagree
  refine ⟨fun c => Cert.Product.prod
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v0_eq, Cert.ReferenceIdeal.RefValue.dot_eq_prod,
    (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
